-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S20000x128 : Shape := ⟨2, ![20000, 128]⟩
abbrev S3x128x128 : Shape := ⟨3, ![3, 128, 128]⟩
abbrev S128x128 : Shape := ⟨2, ![128, 128]⟩
abbrev S128 : Shape := ⟨1, ![128]⟩
abbrev S3x1600000 : Shape := ⟨2, ![3, 1600000]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x1600000 : S_.BroadcastsInDim S3x1600000 (![] : Fin 0 → Fin S3x1600000.rank)
  reducesTo_S3x1600000_S_d0_1 : S3x1600000.ReducesTo [0, 1] S_

variable [Facts]

def fn_part2 {F : FTy → Type} [FloatOps F] (main_arg7 : FVec F S3x1600000 .f32) (main_v33 : IVec S_ 1) : IVec S_ 1 :=
  let main_v34 : FVec F S3x1600000 .f32 := Host.absf main_arg7
  let main_cst_12 : FVec F S_ .f32 := constant S_ .f32 0x7F800000#32
  let main_v35 : FVec F S3x1600000 .f32 := broadcastInDim S3x1600000 ![] bcast_S_S3x1600000 main_cst_12
  let main_v36 : IVec S3x1600000 1 := cmpf .olt main_v34 main_v35
  let main_c_13 : IVec S_ 1 := constantI S_ 1 1#1
  let main_v37 : IVec S_ 1 := (fun x v => Host.reduce IntOp.andi x v reducesTo_S3x1600000_S_d0_1 h_S_) main_v36 main_c_13
  let main_v38 : IVec S_ 1 := andi main_v33 main_v37
  main_v38

def fn_part1 {F : FTy → Type} [FloatOps F] (main_arg4 : FVec F S128 .f32) (main_arg5 : FVec F S128x128 .f32) (main_arg6 : FVec F S128 .f32) (main_arg7 : FVec F S3x1600000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S80000x128 .f32) (main_arg1 : FVec F S20000x128 .f32) (main_arg2 : FVec F S3x128x128 .f32) (main_arg3 : FVec F S128x128 .f32) (main_arg4 : FVec F S128 .f32) (main_arg5 : FVec F S128x128 .f32) (main_arg6 : FVec F S128 .f32) (main_arg7 : FVec F S3x1600000 .f32) (main_arg8 : IVec S3x1600000 32) (main_arg9 : IVec S3x1600000 32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S80000x128 : Shape := ⟨2, ![80000, 128]⟩
abbrev S20000x128 : Shape := ⟨2, ![20000, 128]⟩
abbrev S3x128x128 : Shape := ⟨3, ![3, 128, 128]⟩
abbrev S128x128 : Shape := ⟨2, ![128, 128]⟩
abbrev S128 : Shape := ⟨1, ![128]⟩
abbrev S3x1600000 : Shape := ⟨2, ![3, 1600000]⟩
abbrev S100000x128 : Shape := ⟨2, ![100000, 128]⟩
abbrev S3x100000x128 : Shape := ⟨3, ![3, 100000, 128]⟩
abbrev S4000x128 : Shape := ⟨2, ![4000, 128]⟩
abbrev S3x4000x128 : Shape := ⟨3, ![3, 4000, 128]⟩
abbrev S1x128x128 : Shape := ⟨3, ![1, 128, 128]⟩
abbrev S1x4000x128 : Shape := ⟨3, ![1, 4000, 128]⟩
abbrev S_ : Shape := ⟨0, ![]⟩
abbrev S1x100000x128 : Shape := ⟨3, ![1, 100000, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 98
  | .vmem => 21
  | .smem => 0
  | _ => 0

abbrev bufTy : (tb : Table) → Fin (tcTables nBuf tb) → BufTy
  | .hbm, ⟨0, _⟩ => ⟨S80000x128, .f32⟩
  | .hbm, ⟨1, _⟩ => ⟨S20000x128, .f32⟩
  | .hbm, ⟨2, _⟩ => ⟨S3x128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x1600000, .f32⟩
  | .hbm, ⟨8, _⟩ => ⟨S3x1600000, .i32⟩
  | .hbm, ⟨9, _⟩ => ⟨S3x1600000, .i32⟩
  | .hbm, ⟨10, _⟩ => ⟨S100000x128, .f32⟩
  | .hbm, ⟨11, _⟩ => ⟨S3x128x128, .f32⟩
  | .hbm, ⟨12, _⟩ => ⟨S3x100000x128, .f32⟩
  | .hbm, ⟨13, _⟩ => ⟨S_, .f32⟩
  | .hbm, ⟨14, _⟩ => ⟨S100000x128, .f32⟩
  | .hbm, ⟨15, _⟩ => ⟨S1x100000x128, .f32⟩
  | .hbm, ⟨16, _⟩ => ⟨S100000x128, .f32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1x1600000, .f32⟩
  | .hbm, ⟨29, _⟩ => ⟨S1600000, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S1x1600000, .i32⟩
  | .hbm, ⟨34, _⟩ => ⟨S1600000, .i32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S1x100000x128, .f32⟩
  | .hbm, ⟨41, _⟩ => ⟨S100000x128, .f32⟩
  | .hbm, ⟨42, _⟩ => ⟨S1x1600000, .i32⟩
  | .hbm, ⟨43, _⟩ => ⟨S1600000, .i32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1x1600000, .f32⟩
  | .hbm, ⟨54, _⟩ => ⟨S1600000, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S1x1600000, .i32⟩
  | .hbm, ⟨59, _⟩ => ⟨S1600000, .i32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S1x100000x128, .f32⟩
  | .hbm, ⟨66, _⟩ => ⟨S100000x128, .f32⟩
  | .hbm, ⟨67, _⟩ => ⟨S1x1600000, .i32⟩
  | .hbm, ⟨68, _⟩ => ⟨S1600000, .i32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1x1600000, .f32⟩
  | .hbm, ⟨79, _⟩ => ⟨S1600000, .f32⟩
  | .hbm, ⟨80, _⟩ => ⟨S1600000x1, .f32⟩
  | .hbm, ⟨81, _⟩ => ⟨S1600000x128, .f32⟩
  | .hbm, ⟨82, _⟩ => ⟨S1600000x128, .f32⟩
  | .hbm, ⟨83, _⟩ => ⟨S1x1600000, .i32⟩
  | .hbm, ⟨84, _⟩ => ⟨S1600000, .i32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S80000x128, .f32⟩
  | .hbm, ⟨91, _⟩ => ⟨S20000x128, .f32⟩
  | .hbm, ⟨92, _⟩ => ⟨S128x128, .f32⟩
  | .hbm, ⟨93, _⟩ => ⟨S128x128, .f32⟩
  | .hbm, ⟨94, _⟩ => ⟨S1x128, .f32⟩
  | .hbm, ⟨95, _⟩ => ⟨S1x128, .f32⟩
  | .hbm, ⟨96, _⟩ => ⟨S80000x128, .f32⟩
  | .hbm, ⟨97, _⟩ => ⟨S20000x128, .f32⟩
  | .local _ .vmem, ⟨0, _⟩ => ⟨S4000x128, .f32⟩
  | .local _ .vmem, ⟨1, _⟩ => ⟨S4000x128, .f32⟩
  | .local _ .vmem, ⟨2, _⟩ => ⟨S3x128x128, .f32⟩
  | .local _ .vmem, ⟨3, _⟩ => ⟨S3x4000x128, .f32⟩
  | .local _ .vmem, ⟨4, _⟩ => ⟨S3x4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S128x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_5 : Ref sig .tc := ⟨.hbm, 69, rfl⟩
abbrev main_v52 : Ref sig .tc := ⟨.hbm, 70, rfl⟩
abbrev main_v53 : Ref sig .tc := ⟨.hbm, 71, rfl⟩
abbrev main_c_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S80000x128_S20000x128_S100000x128_d0 : Shape.Concatenates [S80000x128, S20000x128] S100000x128 0
  transposes_S3x128x128_S3x128x128_0_2_1 : S3x128x128.Transposes [0, 2, 1] S3x128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x4000x128_S1x4000x128_0_0_0 : ∀ a, (![0, 0, 0] : Fin 3 → Nat) a + S1x4000x128.size a ≤ S3x4000x128.size a
  h_S1x4000x128 : 0 < S1x4000x128.numel
  shapeCasts_S1x4000x128_S4000x128 : S1x4000x128.ShapeCasts S4000x128
  shapeCasts_S4000x128_S1x4000x128 : S4000x128.ShapeCasts S1x4000x128
  inb_S3x128x128_S1x128x128_1_0_0 : ∀ a, (![1, 0, 0] : Fin 3 → Nat) a + S1x128x128.size a ≤ S3x128x128.size a
  inb_S3x4000x128_S1x4000x128_1_0_0 : ∀ a, (![1, 0, 0] : Fin 3 → Nat) a + S1x4000x128.size a ≤ S3x4000x128.size a
  inb_S3x128x128_S1x128x128_2_0_0 : ∀ a, (![2, 0, 0] : Fin 3 → Nat) a + S1x128x128.size a ≤ S3x128x128.size a
  inb_S3x4000x128_S1x4000x128_2_0_0 : ∀ a, (![2, 0, 0] : Fin 3 → Nat) a + S1x4000x128.size a ≤ S3x4000x128.size a
  bcast_S_S100000x128 : S_.BroadcastsInDim S100000x128 (![] : Fin 0 → Fin S100000x128.rank)
  slices_S3x100000x128_S1x100000x128_0_0_0 : S3x100000x128.Slices ![0, 0, 0] S1x100000x128
  shapeCasts_S1x100000x128_S100000x128 : S1x100000x128.ShapeCasts S100000x128
  slices_S3x1600000_S1x1600000_0_0 : S3x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S3x100000x128_S1x100000x128_1_0_0 : S3x100000x128.Slices ![1, 0, 0] S1x100000x128
  slices_S3x1600000_S1x1600000_1_0 : S3x1600000.Slices ![1, 0] S1x1600000
  slices_S3x100000x128_S1x100000x128_2_0_0 : S3x100000x128.Slices ![2, 0, 0] S1x100000x128
  slices_S3x1600000_S1x1600000_2_0 : S3x1600000.Slices ![2, 0] S1x1600000
  slices_S100000x128_S80000x128_0_0 : S100000x128.Slices ![0, 0] S80000x128
  slices_S100000x128_S20000x128_80000_0 : S100000x128.Slices ![80000, 0] S20000x128
  transposes_S128x128_S128x128_1_0 : S128x128.Transposes [1, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x4000x128.size a ≤ S3x100000x128.size a
  hwx0_2 : ∀ i : grid0.Coords, EltTy.bits .f32 = 32 ∨ (Rect.block (s := S3x100000x128) S3x4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S80000x128.size a
  hwx1_0 : ∀ i : grid1.Coords, EltTy.bits .f32 = 32 ∨ (Rect.block (s := S80000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S80000x128.size a
  hwx1_1 : ∀ i : grid1.Coords, EltTy.bits .f32 = 32 ∨ (Rect.block (s := S80000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S80000x128.size a
  hwx1_4 : ∀ i : grid1.Coords, EltTy.bits .f32 = 32 ∨ (Rect.block (s := S80000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S20000x128.size a
  hwx2_4 : ∀ i : grid2.Coords, EltTy.bits .f32 = 32 ∨ (Rect.block (s := S20000x128) S4000x128.size (cc2_transform_4 i) (hinb2_4 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v70) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v76) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v71) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S80000x128 : Shape := ⟨2, ![80000, 128]⟩
abbrev S20000x128 : Shape := ⟨2, ![20000, 128]⟩
abbrev S3x128x128 : Shape := ⟨3, ![3, 128, 128]⟩
abbrev S128x128 : Shape := ⟨2, ![128, 128]⟩
abbrev S128 : Shape := ⟨1, ![128]⟩
abbrev S3x1600000 : Shape := ⟨2, ![3, 1600000]⟩
abbrev S100000x128 : Shape := ⟨2, ![100000, 128]⟩
abbrev S_ : Shape := ⟨0, ![]⟩
abbrev S1x128x128 : Shape := ⟨3, ![1, 128, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S80000x128, .f32⟩
  | .hbm, ⟨1, _⟩ => ⟨S20000x128, .f32⟩
  | .hbm, ⟨2, _⟩ => ⟨S3x128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x1600000, .f32⟩
  | .hbm, ⟨8, _⟩ => ⟨S3x1600000, .i32⟩
  | .hbm, ⟨9, _⟩ => ⟨S3x1600000, .i32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S1x128x128, .f32⟩
  | .hbm, ⟨14, _⟩ => ⟨S128x128, .f32⟩
  | .hbm, ⟨15, _⟩ => ⟨S128x128, .f32⟩
  | .hbm, ⟨16, _⟩ => ⟨S100000x128, .f32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1x1600000, .f32⟩
  | .hbm, ⟨29, _⟩ => ⟨S1600000, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S1x1600000, .i32⟩
  | .hbm, ⟨34, _⟩ => ⟨S1600000, .i32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S1x128x128, .f32⟩
  | .hbm, ⟨41, _⟩ => ⟨S128x128, .f32⟩
  | .hbm, ⟨42, _⟩ => ⟨S128x128, .f32⟩
  | .hbm, ⟨43, _⟩ => ⟨S100000x128, .f32⟩
  | .hbm, ⟨44, _⟩ => ⟨S1x1600000, .i32⟩
  | .hbm, ⟨45, _⟩ => ⟨S1600000, .i32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1x1600000, .f32⟩
  | .hbm, ⟨56, _⟩ => ⟨S1600000, .f32⟩
  | .hbm, ⟨57, _⟩ => ⟨S1600000x1, .f32⟩
  | .hbm, ⟨58, _⟩ => ⟨S1600000x128, .f32⟩
  | .hbm, ⟨59, _⟩ => ⟨S1600000x128, .f32⟩
  | .hbm, ⟨60, _⟩ => ⟨S1x1600000, .i32⟩
  | .hbm, ⟨61, _⟩ => ⟨S1600000, .i32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S128x128, .f32⟩
  | .hbm, ⟨70, _⟩ => ⟨S100000x128, .f32⟩
  | .hbm, ⟨71, _⟩ => ⟨S1x1600000, .i32⟩
  | .hbm, ⟨72, _⟩ => ⟨S1600000, .i32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1x1600000, .f32⟩
  | .hbm, ⟨83, _⟩ => ⟨S1600000, .f32⟩
  | .hbm, ⟨84, _⟩ => ⟨S1600000x1, .f32⟩
  | .hbm, ⟨85, _⟩ => ⟨S1600000x128, .f32⟩
  | .hbm, ⟨86, _⟩ => ⟨S1600000x128, .f32⟩
  | .hbm, ⟨87, _⟩ => ⟨S1x1600000, .i32⟩
  | .hbm, ⟨88, _⟩ => ⟨S1600000, .i32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x128, .f32⟩
  | .hbm, ⟨94, _⟩ => ⟨S80000x128, .f32⟩
  | .hbm, ⟨95, _⟩ => ⟨S80000x128, .f32⟩
  | .hbm, ⟨96, _⟩ => ⟨S128x128, .f32⟩
  | .hbm, ⟨97, _⟩ => ⟨S80000x128, .f32⟩
  | .hbm, ⟨98, _⟩ => ⟨S1x128, .f32⟩
  | .hbm, ⟨99, _⟩ => ⟨S80000x128, .f32⟩
  | .hbm, ⟨100, _⟩ => ⟨S80000x128, .f32⟩
  | .hbm, ⟨101, _⟩ => ⟨S_, .f32⟩
  | .hbm, ⟨102, _⟩ => ⟨S80000x128, .f32⟩
  | .hbm, ⟨103, _⟩ => ⟨S80000x128, .f32⟩
  | .hbm, ⟨104, _⟩ => ⟨S20000x128, .f32⟩
  | .hbm, ⟨105, _⟩ => ⟨S20000x128, .f32⟩
  | .hbm, ⟨106, _⟩ => ⟨S128x128, .f32⟩
  | .hbm, ⟨107, _⟩ => ⟨S20000x128, .f32⟩
  | .hbm, ⟨108, _⟩ => ⟨S1x128, .f32⟩
  | .hbm, ⟨109, _⟩ => ⟨S20000x128, .f32⟩
  | .hbm, ⟨110, _⟩ => ⟨S20000x128, .f32⟩
  | .hbm, ⟨111, _⟩ => ⟨S_, .f32⟩
  | .hbm, ⟨112, _⟩ => ⟨S20000x128, .f32⟩
  | .hbm, ⟨113, _⟩ => ⟨S20000x128, .f32⟩
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_2 : Ref sig .tc := ⟨.hbm, 46, rfl⟩
abbrev main_v32 : Ref sig .tc := ⟨.hbm, 47, rfl⟩
abbrev main_v33 : Ref sig .tc := ⟨.hbm, 48, rfl⟩
abbrev main_c_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_5 : Ref sig .tc := ⟨.hbm, 73, rfl⟩
abbrev main_v56 : Ref sig .tc := ⟨.hbm, 74, rfl⟩
abbrev main_v57 : Ref sig .tc := ⟨.hbm, 75, rfl⟩
abbrev main_c_6 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_call0_cst : Ref sig .tc := ⟨.hbm, 101, rfl⟩
abbrev main_call0_v0 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call1_cst : Ref sig .tc := ⟨.hbm, 111, rfl⟩
abbrev main_call1_v0 : Ref sig .tc := ⟨.hbm, 112, rfl⟩
abbrev main_v89 : Ref sig .tc := ⟨.hbm, 113, rfl⟩

abbrev nD : Nat := 1
abbrev τ : Topo := Topo.v7x

variable {F : FTy → Type} [FloatOps F]

class Facts₀ : Prop where
  concatenates_S80000x128_S20000x128_S100000x128_d0 : Shape.Concatenates [S80000x128, S20000x128] S100000x128 0
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x1600000_S1x1600000_0_0 : S3x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S3x128x128_S1x128x128_1_0_0 : S3x128x128.Slices ![1, 0, 0] S1x128x128
  slices_S3x1600000_S1x1600000_1_0 : S3x1600000.Slices ![1, 0] S1x1600000
  slices_S3x128x128_S1x128x128_2_0_0 : S3x128x128.Slices ![2, 0, 0] S1x128x128
  slices_S3x1600000_S1x1600000_2_0 : S3x1600000.Slices ![2, 0] S1x1600000
  slices_S100000x128_S80000x128_0_0 : S100000x128.Slices ![0, 0] S80000x128
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  bcast_S_S80000x128 : S_.BroadcastsInDim S80000x128 (![] : Fin 0 → Fin S80000x128.rank)
  slices_S100000x128_S20000x128_80000_0 : S100000x128.Slices ![80000, 0] S20000x128
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S80000x128_S128x128_S80000x128_1_0_0_1_n_n_wf : DotDims.WF S80000x128 S128x128 S80000x128 [1] [0] [0] [1] [] []
  dot_S20000x128_S128x128_S20000x128_1_0_0_1_n_n_wf : DotDims.WF S20000x128 S128x128 S20000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KernelRun.lean ====
/-
  The idealized kernel's run with its two result arrays named.

  The program is three pipelined regions among two stretches of host operations. Its run is read segment by segment:
  at every boundary between segments the TensorCore's buffers hold a known valuation, and the last of these, the contents
  at the exit of the third region, is what every unscoped buffer holds in the final state. Here that reading is stated
  for the two result buffers (the item update and the user update) beside the ten argument arrays, which end as launched.
-/
import proofs.«149580_j24060406792470_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; both result buffers end at the contents the last segment
    boundary gives them, and every argument array ends as launched. -/
theorem run_named : θ_run defs (onTc (τ := τ) (main (F := F))) ⟨m, fun _ => 0, ρ⟩ (fun r => ∀ c : Dev nD,
      r.2.mem ((c.tc : Thread nD τ).loc main_v76) = W5 m ρ c (Proc.devRef .tc main_v76)
      ∧ r.2.mem ((c.tc : Thread nD τ).loc main_v77) = W5 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v76 (by decide)), h c _ (mem_uc main_v77 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Results

end
-- ==== Proof.UpdateBody.lean ====
/-
  The update kernel's block arithmetic at an index (both launches of it: item rows and user rows).

  One grid point holds a block of 4000 rows. From the blocks it loaded — message rows x, feature rows h, the transposed weight
  matrix w (entry (k, d)), the bias row b (one row of 128 entries) — the body computes
  max (∑ k, (x[p, k] + h[p, k]) · w[k, d] + b[0, d]) 0 at row p and column d: the sum is the matrix unit's product into a zero
  accumulator, read at an index with the contracted axis re-indexed by its 128 literal positions; the roundings to bfloat16
  on the way in are the identity on the extended reals.
-/
import proofs.«149580_j24060406792470_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The dimension record of every block product in this program: [4000, 128] · [128, 128], contracting the left operand's
    columns with the right operand's rows. -/
abbrev blockDot := dot_S4000x128_S128x128_S4000x128_1_0_0_1_n_n

theorem blockDot_lhs_row (i : S4000x128.Idx) (c : blockDot.contr.Idx) : (blockDot.lhsIdx i c 0).val = (i 0).val := by
  unfold DotDims.lhsIdx
  rw [dif_neg (show ¬(0 : Fin S4000x128.rank) ∈ blockDot.lhsBatch by decide), dif_pos (show (0 : Fin S4000x128.rank) ∈ blockDot.lhsNonContracting by decide)]
  rfl

theorem blockDot_rhs_col (i : S4000x128.Idx) (c : blockDot.contr.Idx) : (blockDot.rhsIdx i c 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The block product into a zero accumulator, at row p and column q: the sum over the 128 positions of the contracted axis. -/
theorem blockProduct_apply (l : FVec Ideal S4000x128 .bf16) (r : FVec Ideal S128x128 .bf16) (p : Fin 4000) (q : Fin 128) :
    matmul (F := Ideal) blockDot none l r (constant (F := Ideal) S4000x128 .f32 0x00000000#32) (ix2 p q)
      = ∑ k : Fin 128, l (ix2 p k) * r (ix2 k q) := by
  refine (Ideal.matmul_constant_zero_apply blockDot none l r (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact blockDot_lhs_row _ _
    | ⟨1, _⟩ => exact (blockDot.lhsIdx_val_of_single rfl _ _).trans hk)
  have er : blockDot.rhsIdx (ix2 p q) ((contrEquiv1 blockDot 128 rfl rfl).symm k) = ix2 k q := funext fun a => Fin.ext (by
    match a with
    | ⟨0, _⟩ => exact (blockDot.rhsIdx_val_of_single rfl _ _).trans hk
    | ⟨1, _⟩ => exact blockDot_rhs_col _ _)
  rw [el, er]

/-- The item launch's body at row p and column q of its block. -/
theorem itemBody_apply (x h : Vec Ideal S4000x128 .f32) (w : Vec Ideal S128x128 .f32) (b : Vec Ideal S1x128 .f32)
    (p : Fin 4000) (q : Fin 128) :
    k1_pay1 (F := Ideal) x h w b (ix2 p q)
      = max ((∑ k : Fin 128, (x (ix2 p k) + h (ix2 p k)) * w (ix2 k q)) + b (ix2 (0 : Fin 1) q)) (Ideal.ofBits .f32 0x00000000#32) := by
  unfold k1_pay1
  rw [shapeCast_self x, shapeCast_self w, shapeCast_self b]
  refine congrArg₂ max (congrArg₂ (· + ·) ?_ ?_) rfl
  · exact (blockProduct_apply _ _ p q).trans (Finset.sum_congr rfl fun k _ => rfl)
  · exact broadcastTo_1b_ab_apply b broadcasts_S1x128_S4000x128 p q

/-- The user launch's body at row p and column q of its block: the same arithmetic. -/
theorem userBody_apply (x h : Vec Ideal S4000x128 .f32) (w : Vec Ideal S128x128 .f32) (b : Vec Ideal S1x128 .f32)
    (p : Fin 4000) (q : Fin 128) :
    k2_pay1 (F := Ideal) x h w b (ix2 p q)
      = max ((∑ k : Fin 128, (x (ix2 p k) + h (ix2 p k)) * w (ix2 k q)) + b (ix2 (0 : Fin 1) q)) (Ideal.ofBits .f32 0x00000000#32) := by
  unfold k2_pay1
  rw [shapeCast_self x, shapeCast_self w, shapeCast_self b]
  refine congrArg₂ max (congrArg₂ (· + ·) ?_ ?_) rfl
  · exact (blockProduct_apply _ _ p q).trans (Finset.sum_congr rfl fun k _ => rfl)
  · exact broadcastTo_1b_ab_apply b broadcasts_S1x128_S4000x128 p q

/-- The relation kernel's body, relation 0: the block's rows against the r-th relation matrix (already transposed on the
    host: entry (k, d)), with a leading unit axis on both the matrix it loaded and the tile it stores. -/
theorem relBody0_apply (x : Vec Ideal S4000x128 .f32) (w : Vec Ideal S1x128x128 .f32) (u : Fin 1) (p : Fin 4000) (q : Fin 128) :
    k0_pay2 (F := Ideal) x w (ix3 u p q) = ∑ k : Fin 128, x (ix2 p k) * w (ix3 (0 : Fin 1) k q) := by
  unfold k0_pay2 k0_pay1
  rw [shapeCast_self x]
  refine (shapeCast_ab_1ab_apply _ shapeCasts_S4000x128_S1x4000x128 u p q).trans ?_
  refine (blockProduct_apply _ _ p q).trans (Finset.sum_congr rfl fun k _ => ?_)
  exact congrArg (x (ix2 p k) * ·) (shapeCast_1ab_ab_apply w shapeCasts_S1x128x128_S128x128 k q)

theorem relBody1_apply (x : Vec Ideal S4000x128 .f32) (w : Vec Ideal S1x128x128 .f32) (u : Fin 1) (p : Fin 4000) (q : Fin 128) :
    k0_pay3 (F := Ideal) x w (ix3 u p q) = ∑ k : Fin 128, x (ix2 p k) * w (ix3 (0 : Fin 1) k q) := by
  unfold k0_pay3 k0_pay1
  rw [shapeCast_self x]
  refine (shapeCast_ab_1ab_apply _ shapeCasts_S4000x128_S1x4000x128 u p q).trans ?_
  refine (blockProduct_apply _ _ p q).trans (Finset.sum_congr rfl fun k _ => ?_)
  exact congrArg (x (ix2 p k) * ·) (shapeCast_1ab_ab_apply w shapeCasts_S1x128x128_S128x128 k q)

theorem relBody2_apply (x : Vec Ideal S4000x128 .f32) (w : Vec Ideal S1x128x128 .f32) (u : Fin 1) (p : Fin 4000) (q : Fin 128) :
    k0_pay4 (F := Ideal) x w (ix3 u p q) = ∑ k : Fin 128, x (ix2 p k) * w (ix3 (0 : Fin 1) k q) := by
  unfold k0_pay4 k0_pay1
  rw [shapeCast_self x]
  refine (shapeCast_ab_1ab_apply _ shapeCasts_S4000x128_S1x4000x128 u p q).trans ?_
  refine (blockProduct_apply _ _ p q).trans (Finset.sum_congr rfl fun k _ => ?_)
  exact congrArg (x (ix2 p k) * ·) (shapeCast_1ab_ab_apply w shapeCasts_S1x128x128_S128x128 k q)

end Cert.KernelIdeal.Body

end
-- ==== Proof.Layer.lean ====
/-
  The mathematics of one heterogeneous message-passing layer, index by index, on the extended reals.

  Nodes are rows of a feature table with 128 columns (80000 item rows followed by 20000 user rows). For each of the three
  relations r the table is first transformed linearly: row n of the r-th transformed table is the product of row n of the
  feature table with the TRANSPOSE of the r-th 128 × 128 relation matrix, entry d being the sum over k of
  h[n, k] · W[r, d, k]. The three transformed tables are then aggregated along the edges into ONE message table (a gather
  of source rows, a scaling by the edge value, a scatter-add into destination rows): that aggregation is the same chain of
  operations in both programs and is never opened here. Finally each node class is updated:
  out[n, d] = max (∑ k, (msg[n, k] + h[n, k]) · W[d, k] + b[d]) 0.

  Only the two dense steps are stated here, as functions of whole arrays; sums range over the literal index type of the
  contracted axis, and the zero of the rectifier is kept as the float word it is printed as.
-/
import Idealize.ShloMosaic.PureOps.Ideal
import Idealize.ShloMosaic.Lib.ValueIdx

noncomputable section

namespace Cert.Layer

open Idealize.ShloMosaic Idealize.ShloMosaic.ValueIdx

/-- The relation transform of ALL three relations at once: entry (r, n, d) is row n of the table against row d of the r-th
    relation matrix. -/
def relTransform (h : FVec Ideal ⟨2, ![100000, 128]⟩ .f32) (W : FVec Ideal ⟨3, ![3, 128, 128]⟩ .f32) :
    FVec Ideal ⟨3, ![3, 100000, 128]⟩ .f32 :=
  fun i => ∑ k : Fin 128, h (ix2 (i 1) k) * W (ix3 (i 0) (i 2) k)

/-- The transform of one relation r: a table of the feature table's shape. -/
def relTransformAt (r : Fin 3) (h : FVec Ideal ⟨2, ![100000, 128]⟩ .f32) (W : FVec Ideal ⟨3, ![3, 128, 128]⟩ .f32) :
    FVec Ideal ⟨2, ![100000, 128]⟩ .f32 :=
  fun i => ∑ k : Fin 128, h (ix2 (i 0) k) * W (ix3 r (i 1) k)

/-- The three relation products as the kernel's launch sees them, over a table of N rows: the relation matrices arrive already
    transposed (entry (r, k, d)), and entry (r, n, d) of the result is row n of the table against column d of the r-th of them. -/
def relProducts {N : Nat} (h : FVec Ideal ⟨2, ![N, 128]⟩ .f32) (wT : FVec Ideal ⟨3, ![3, 128, 128]⟩ .f32) :
    FVec Ideal ⟨3, ![3, N, 128]⟩ .f32 :=
  fun i => ∑ k : Fin 128, h (ix2 (i 1) k) * wT (ix3 (i 0) k (i 2))

/-- The update as the kernel's launches see it, over a table of N rows: the message rows x and the feature rows h of the SAME
    row range, the weight matrix already transposed (entry (k, d)) and the bias as one row. -/
def rowsUpdate {N : Nat} (x h : FVec Ideal ⟨2, ![N, 128]⟩ .f32) (w : FVec Ideal ⟨2, ![128, 128]⟩ .f32)
    (b : FVec Ideal ⟨2, ![1, 128]⟩ .f32) : FVec Ideal ⟨2, ![N, 128]⟩ .f32 :=
  fun i => max ((∑ k : Fin 128, (x (ix2 (i 0) k) + h (ix2 (i 0) k)) * w (ix2 k (i 1))) + b (ix2 (0 : Fin 1) (i 1)))
    (Ideal.ofBits .f32 0x00000000#32)

/-- The residual update of the item rows: the rectified affine image of message plus features. `msg` is the WHOLE message
    table (100000 rows); the item rows are its first 80000. -/
def itemUpdate (msg : FVec Ideal ⟨2, ![100000, 128]⟩ .f32) (h : FVec Ideal ⟨2, ![80000, 128]⟩ .f32)
    (W : FVec Ideal ⟨2, ![128, 128]⟩ .f32) (b : FVec Ideal ⟨1, ![128]⟩ .f32) : FVec Ideal ⟨2, ![80000, 128]⟩ .f32 :=
  fun i => max ((∑ k : Fin 128, (msg (ix2 ⟨(i 0).val, Nat.lt_trans (i 0).isLt (by decide)⟩ k) + h (ix2 (i 0) k)) * W (ix2 (i 1) k))
    + b (ix1 (i 1))) (Ideal.ofBits .f32 0x00000000#32)

/-- The residual update of the user rows: the same, over the last 20000 rows of the message table. -/
def userUpdate (msg : FVec Ideal ⟨2, ![100000, 128]⟩ .f32) (h : FVec Ideal ⟨2, ![20000, 128]⟩ .f32)
    (W : FVec Ideal ⟨2, ![128, 128]⟩ .f32) (b : FVec Ideal ⟨1, ![128]⟩ .f32) : FVec Ideal ⟨2, ![20000, 128]⟩ .f32 :=
  fun i => max ((∑ k : Fin 128, (msg (ix2 ⟨80000 + (i 0).val, Nat.add_lt_add_left (i 0).isLt 80000⟩ k) + h (ix2 (i 0) k)) * W (ix2 (i 1) k))
    + b (ix1 (i 1))) (Ideal.ofBits .f32 0x00000000#32)

end Cert.Layer

end
-- ==== Proof.RelRegion.lean ====
/-
  The relation-transform launch, from blocks to the whole array.

  The launch walks 25 grid points; point t holds rows 4000·t … 4000·t + 3999 of the node table and all three (transposed)
  relation matrices, and stores three tiles, one per relation, that together fill its [3, 4000, 128] result block: tile r is the
  block's rows times the r-th matrix. So the block is ONE function of the block index — entry (r, p, d) is row p against column
  d of matrix r —, that function is block t of the same formula over the whole table, and the 25 blocks tile the 100000 rows of
  every relation's slab.
-/
import proofs.«149580_j24060406792470_1_alg».proof.Proof.Gen.KernelIdeal.Frame
import proofs.«149580_j24060406792470_1_alg».proof.Proof.UpdateBody
import proofs.«149580_j24060406792470_1_alg».proof.Proof.Layer

set_option maxRecDepth 16384

noncomputable section

namespace Cert.KernelIdeal.RelRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The three stored tiles are the three slabs of one function of the block index. -/
theorem block_eq (x0 : Vec Ideal S4000x128 .f32) (x1 : Vec Ideal S3x128x128 .f32) :
    out0_2 (F := Ideal) x0 x1 = Layer.relProducts (N := 4000) x0 x1 := by
  funext y
  unfold out0_2
  refine View.canon_apply_of_pieces (Val := Elt Ideal) (Layer.relProducts (N := 4000) x0 x1) _ ?_ y (cover0_2 _ _ _ y)
  intro pc hpc
  simp only [List.mem_cons, List.not_mem_nil, or_false, View.ld_unit_zero (S := S4000x128) zeroOffsets] at hpc
  rcases hpc with rfl | rfl | rfl
  · intro x
    obtain ⟨u, p, q, rfl⟩ : ∃ (u : Fin 1) (p : Fin 4000) (q : Fin 128), x = ix3 u p q := ⟨x 0, x 1, x 2, eq_ix3 x⟩
    refine (Body.relBody2_apply _ _ u p q).trans ?_
    show _ = ∑ k : Fin 128, x0 (ix2 ((r0_6.emb (ix3 u p q)) 1) k) * x1 (ix3 ((r0_6.emb (ix3 u p q)) 0) k ((r0_6.emb (ix3 u p q)) 2))
    have hu : u.val = 0 := by omega
    refine Finset.sum_congr rfl fun k _ => congrArg₂ (· * ·) (congrArg x0 (funext fun a => Fin.ext ?_)) ?_
    · match a with
      | ⟨0, _⟩ => show p.val = 0 + 1 * p.val; omega
      | ⟨1, _⟩ => rfl
    · show x1 (r0_5.emb (ix3 (0 : Fin 1) k q)) = _
      refine congrArg x1 (funext fun a => Fin.ext ?_)
      match a with
      | ⟨0, _⟩ => show 2 + 1 * 0 = 2 + 1 * u.val; omega
      | ⟨1, _⟩ => show 0 + 1 * k.val = k.val; omega
      | ⟨2, _⟩ => show 0 + 1 * q.val = 0 + 1 * q.val; rfl
  · intro x
    obtain ⟨u, p, q, rfl⟩ : ∃ (u : Fin 1) (p : Fin 4000) (q : Fin 128), x = ix3 u p q := ⟨x 0, x 1, x 2, eq_ix3 x⟩
    refine (Body.relBody1_apply _ _ u p q).trans ?_
    show _ = ∑ k : Fin 128, x0 (ix2 ((r0_4.emb (ix3 u p q)) 1) k) * x1 (ix3 ((r0_4.emb (ix3 u p q)) 0) k ((r0_4.emb (ix3 u p q)) 2))
    have hu : u.val = 0 := by omega
    refine Finset.sum_congr rfl fun k _ => congrArg₂ (· * ·) (congrArg x0 (funext fun a => Fin.ext ?_)) ?_
    · match a with
      | ⟨0, _⟩ => show p.val = 0 + 1 * p.val; omega
      | ⟨1, _⟩ => rfl
    · show x1 (r0_3.emb (ix3 (0 : Fin 1) k q)) = _
      refine congrArg x1 (funext fun a => Fin.ext ?_)
      match a with
      | ⟨0, _⟩ => show 1 + 1 * 0 = 1 + 1 * u.val; omega
      | ⟨1, _⟩ => show 0 + 1 * k.val = k.val; omega
      | ⟨2, _⟩ => show 0 + 1 * q.val = 0 + 1 * q.val; rfl
  · intro x
    obtain ⟨u, p, q, rfl⟩ : ∃ (u : Fin 1) (p : Fin 4000) (q : Fin 128), x = ix3 u p q := ⟨x 0, x 1, x 2, eq_ix3 x⟩
    refine (Body.relBody0_apply _ _ u p q).trans ?_
    show _ = ∑ k : Fin 128, x0 (ix2 ((r0_2.emb (ix3 u p q)) 1) k) * x1 (ix3 ((r0_2.emb (ix3 u p q)) 0) k ((r0_2.emb (ix3 u p q)) 2))
    have hu : u.val = 0 := by omega
    refine Finset.sum_congr rfl fun k _ => congrArg₂ (· * ·) (congrArg x0 (funext fun a => Fin.ext ?_)) ?_
    · match a with
      | ⟨0, _⟩ => show p.val = 0 + 1 * p.val; omega
      | ⟨1, _⟩ => rfl
    · show x1 (r0_1.emb (ix3 (0 : Fin 1) k q)) = _
      refine congrArg x1 (funext fun a => Fin.ext ?_)
      match a with
      | ⟨0, _⟩ => show 0 + 1 * 0 = 0 + 1 * u.val; omega
      | ⟨1, _⟩ => show 0 + 1 * k.val = k.val; omega
      | ⟨2, _⟩ => show 0 + 1 * q.val = 0 + 1 * q.val; rfl

/-- The printed index maps over the grid: the table's window sits at block row t, the matrices' window at the origin, the
    result's window at block row t of its middle axis. -/
theorem blockIndex : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- Node table: entry (p, k) of point t's block is entry (4000·t + p, k) of the array. -/
theorem read_table (c : Dev nD) (t : Fin cfg0.N) (p : Fin 4000) (k : Fin 128) (i : S100000x128.Idx)
    (h0 : (i 0).val = t.val * 4000 + p.val) (h1 : (i 1).val = k.val) :
    iblk0 V c 0 t (ix2 p k) = V c main_v0 i := by
  show V c main_v0 (((cfg0.win 0).blk t).view.emb (ix2 p k)) = V c main_v0 i
  refine congrArg _ (funext fun a => Fin.ext ?_)
  obtain ⟨e0, e1, -⟩ := blockIndex t
  match a with
  | ⟨0, _⟩ => show win0_0.index t (0 : Fin 2) * 4000 + 1 * p.val = (i 0).val; omega
  | ⟨1, _⟩ => show win0_0.index t (1 : Fin 2) * 128 + 1 * k.val = (i 1).val; omega

/-- The transposed relation matrices are held whole. -/
theorem read_matrices (c : Dev nD) (t : Fin cfg0.N) (r : Fin 3) (k q : Fin 128) (i : S3x128x128.Idx)
    (h0 : (i 0).val = r.val) (h1 : (i 1).val = k.val) (h2 : (i 2).val = q.val) :
    iblk0 V c 1 t (ix3 r k q) = V c main_v1 i := by
  show V c main_v1 (((cfg0.win 1).blk t).view.emb (ix3 r k q)) = V c main_v1 i
  refine congrArg _ (funext fun a => Fin.ext ?_)
  obtain ⟨-, -, e2, e3, e4, -⟩ := blockIndex t
  match a with
  | ⟨0, _⟩ => show win0_1.index t (0 : Fin 3) * 3 + 1 * r.val = (i 0).val; omega
  | ⟨1, _⟩ => show win0_1.index t (1 : Fin 3) * 128 + 1 * k.val = (i 1).val; omega
  | ⟨2, _⟩ => show win0_1.index t (2 : Fin 3) * 128 + 1 * q.val = (i 2).val; omega

/-- What point t writes back is block t of the three products of the arrays the launch finds. -/
theorem flushed_eq (c : Dev nD) (t : Fin cfg0.N) :
    (dat0 (F := Ideal) V c).flushed 2 t = ((cfg0.win 2).blk t).view.read (Elt Ideal)
      (Layer.relProducts (N := 100000) (V c main_v0) (V c main_v1)) := by
  show (cfg0.win 2).cut (grid0.coords t) ((dat0 (F := Ideal) V c).after 2 t) = _
  rw [after0_2, block_eq]
  funext j
  obtain ⟨r, p, q, rfl⟩ : ∃ (r : Fin 3) (p : Fin 4000) (q : Fin 128), j = ix3 r p q := ⟨j 0, j 1, j 2, eq_ix3 j⟩
  obtain ⟨-, -, -, -, -, e5, e6, e7⟩ := blockIndex t
  show Layer.relProducts (N := 4000) (iblk0 V c 0 t) (iblk0 V c 1 t) (ix3 r p q)
    = Layer.relProducts (N := 100000) (V c main_v0) (V c main_v1) (((cfg0.win 2).blk t).view.emb (ix3 r p q))
  unfold Layer.relProducts
  have r0 : ((((cfg0.win 2).blk t).view.emb (ix3 r p q)) 0).val = r.val := by
    show win0_2.index t (0 : Fin 3) * 3 + 1 * r.val = _; omega
  have r1 : ((((cfg0.win 2).blk t).view.emb (ix3 r p q)) 1).val = t.val * 4000 + p.val := by
    show win0_2.index t (1 : Fin 3) * 4000 + 1 * p.val = _; omega
  have r2 : ((((cfg0.win 2).blk t).view.emb (ix3 r p q)) 2).val = q.val := by
    show win0_2.index t (2 : Fin 3) * 128 + 1 * q.val = _; omega
  refine Finset.sum_congr rfl fun k _ => congrArg₂ (· * ·) ?_ ?_
  · exact read_table V c t p k _ r1 rfl
  · exact read_matrices V c t r k q _ r0 rfl r2

/-- An index of the result array is in point t's block iff its middle coordinate is among the block's 4000 rows. -/
theorem mem_block (t : Fin cfg0.N) (i : S3x100000x128.Idx) :
    i ∈ ((cfg0.win 2).blk t).view.set ↔ ∀ a : Fin 3, win0_2.index t a * S3x4000x128.size a ≤ (i a).val ∧ (i a).val < win0_2.index t a * S3x4000x128.size a + S3x4000x128.size a := by
  show i ∈ ((View.whole main_v2).slice (win0_2.rect t)).set ↔ _
  rw [View.set_slice_whole, Rect.mem_set_unit]
  exact Iff.rfl

/-- Row n of every slab lies in the block of point n / 4000: the blocks tile the array. -/
theorem covered (i : S3x100000x128.Idx) :
    ∃ t : Fin cfg0.N, (cfg0.win 2).flush t = true ∧ i ∈ ((cfg0.win 2).blk t).view.set := by
  have hi0 : (i 0).val < 3 := (i 0).isLt
  have hi1 : (i 1).val < 100000 := (i 1).isLt
  have hi2 : (i 2).val < 128 := (i 2).isLt
  have hN : cfg0.N = 25 := N_0
  have ht : (i 1).val / 4000 < cfg0.N := by rw [hN]; omega
  obtain ⟨-, -, -, -, -, e5, e6, e7⟩ := blockIndex ⟨(i 1).val / 4000, ht⟩
  have e6' : win0_2.index ⟨(i 1).val / 4000, ht⟩ (1 : Fin 3) = (i 1).val / 4000 := e6
  refine ⟨⟨(i 1).val / 4000, ht⟩, flush0_2 _, ?_⟩
  rw [mem_block]
  intro a
  match a with
  | ⟨0, _⟩ => show win0_2.index ⟨(i 1).val / 4000, ht⟩ (0 : Fin 3) * 3 ≤ (i 0).val ∧ (i 0).val < win0_2.index ⟨(i 1).val / 4000, ht⟩ (0 : Fin 3) * 3 + 3; omega
  | ⟨1, _⟩ => show win0_2.index ⟨(i 1).val / 4000, ht⟩ (1 : Fin 3) * 4000 ≤ (i 1).val ∧ (i 1).val < win0_2.index ⟨(i 1).val / 4000, ht⟩ (1 : Fin 3) * 4000 + 4000; omega
  | ⟨2, _⟩ => show win0_2.index ⟨(i 1).val / 4000, ht⟩ (2 : Fin 3) * 128 ≤ (i 2).val ∧ (i 2).val < win0_2.index ⟨(i 1).val / 4000, ht⟩ (2 : Fin 3) * 128 + 128; omega

/-- The result array after the launch is the three products of the arrays the launch finds. -/
theorem array_eq (c : Dev nD) :
    (dat0 (F := Ideal) V c).arrAt 2 cfg0.N = Layer.relProducts (N := 100000) (V c main_v0) (V c main_v1) :=
  (dat0 (F := Ideal) V c).arrAt_eq_of_cover 2 _ (fun t _ => flushed_eq V c t) covered

end Cert.KernelIdeal.RelRegion

end
-- ==== Proof.ItemRegion.lean ====
/-
  The item-update launch, from blocks to the whole array.

  The launch walks 20 grid points; point t holds rows 4000·t … 4000·t + 3999 of the message rows, of the feature rows and of
  the result, and the whole weight matrix and bias row at every point. What point t writes back is therefore block t of ONE
  function of the four arrays the launch finds — the row-wise update — and the 20 blocks tile the 80000 rows, so the result
  array ends holding that function, whatever the arrays were when the launch was entered.
-/
import proofs.«149580_j24060406792470_1_alg».proof.Proof.Gen.KernelIdeal.Frame
import proofs.«149580_j24060406792470_1_alg».proof.Proof.UpdateBody
import proofs.«149580_j24060406792470_1_alg».proof.Proof.Layer

set_option maxRecDepth 16384

noncomputable section

namespace Cert.KernelIdeal.ItemRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the three row-blocked windows sit at block row t, the weight and bias windows at
    the origin. -/
theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Message rows: entry (p, k) of point t's block is entry (4000·t + p, k) of the array. -/
theorem read_msg (c : Dev nD) (t : Fin cfg1.N) (p : Fin 4000) (k : Fin 128) (i : S80000x128.Idx)
    (h0 : (i 0).val = t.val * 4000 + p.val) (h1 : (i 1).val = k.val) :
    iblk1 V c 0 t (ix2 p k) = V c main_v70 i := by
  show V c main_v70 (((cfg1.win 0).blk t).view.emb (ix2 p k)) = V c main_v70 i
  refine congrArg _ (funext fun a => Fin.ext ?_)
  obtain ⟨e0, e1, -⟩ := blockIndex t
  match a with
  | ⟨0, _⟩ => show win1_0.index t (0 : Fin 2) * 4000 + 1 * p.val = (i 0).val; omega
  | ⟨1, _⟩ => show win1_0.index t (1 : Fin 2) * 128 + 1 * k.val = (i 1).val; omega

/-- Feature rows: the same rows of the feature table. -/
theorem read_feat (c : Dev nD) (t : Fin cfg1.N) (p : Fin 4000) (k : Fin 128) (i : S80000x128.Idx)
    (h0 : (i 0).val = t.val * 4000 + p.val) (h1 : (i 1).val = k.val) :
    iblk1 V c 1 t (ix2 p k) = V c main_arg0 i := by
  show V c main_arg0 (((cfg1.win 1).blk t).view.emb (ix2 p k)) = V c main_arg0 i
  refine congrArg _ (funext fun a => Fin.ext ?_)
  obtain ⟨-, -, e2, e3, -⟩ := blockIndex t
  match a with
  | ⟨0, _⟩ => show win1_1.index t (0 : Fin 2) * 4000 + 1 * p.val = (i 0).val; omega
  | ⟨1, _⟩ => show win1_1.index t (1 : Fin 2) * 128 + 1 * k.val = (i 1).val; omega

/-- The weight matrix is held whole. -/
theorem read_weight (c : Dev nD) (t : Fin cfg1.N) (k q : Fin 128) (i : S128x128.Idx)
    (h0 : (i 0).val = k.val) (h1 : (i 1).val = q.val) :
    iblk1 V c 2 t (ix2 k q) = V c main_v72 i := by
  show V c main_v72 (((cfg1.win 2).blk t).view.emb (ix2 k q)) = V c main_v72 i
  refine congrArg _ (funext fun a => Fin.ext ?_)
  obtain ⟨-, -, -, -, e4, e5, -⟩ := blockIndex t
  match a with
  | ⟨0, _⟩ => show win1_2.index t (0 : Fin 2) * 128 + 1 * k.val = (i 0).val; omega
  | ⟨1, _⟩ => show win1_2.index t (1 : Fin 2) * 128 + 1 * q.val = (i 1).val; omega

/-- The bias row is held whole. -/
theorem read_bias (c : Dev nD) (t : Fin cfg1.N) (u : Fin 1) (q : Fin 128) (i : S1x128.Idx)
    (h0 : (i 0).val = u.val) (h1 : (i 1).val = q.val) :
    iblk1 V c 3 t (ix2 u q) = V c main_v74 i := by
  show V c main_v74 (((cfg1.win 3).blk t).view.emb (ix2 u q)) = V c main_v74 i
  refine congrArg _ (funext fun a => Fin.ext ?_)
  obtain ⟨-, -, -, -, -, -, e6, e7, -⟩ := blockIndex t
  match a with
  | ⟨0, _⟩ => show win1_3.index t (0 : Fin 2) * 1 + 1 * u.val = (i 0).val; omega
  | ⟨1, _⟩ => show win1_3.index t (1 : Fin 2) * 128 + 1 * q.val = (i 1).val; omega

/-- What point t writes back is block t of the row-wise update of the arrays the launch finds. -/
theorem flushed_eq (c : Dev nD) (t : Fin cfg1.N) :
    (dat1 (F := Ideal) V c).flushed 4 t = ((cfg1.win 4).blk t).view.read (Elt Ideal)
      (Layer.rowsUpdate (N := 80000) (V c main_v70) (V c main_arg0) (V c main_v72) (V c main_v74)) := by
  show (cfg1.win 4).cut (grid1.coords t) ((dat1 (F := Ideal) V c).after 4 t) = _
  rw [after1_4]
  unfold out1_4
  rw [View.canon_unit_zero zeroOffsets]
  simp only [View.ld_unit_zero (S := S4000x128) zeroOffsets, View.ld_unit_zero (S := S128x128) zeroOffsets,
    View.ld_unit_zero (S := S1x128) zeroOffsets]
  funext j
  obtain ⟨p, q, rfl⟩ : ∃ (p : Fin 4000) (q : Fin 128), j = ix2 p q := ⟨j 0, j 1, eq_ix2 j⟩
  obtain ⟨-, -, -, -, -, -, -, -, e8, e9⟩ := blockIndex t
  refine (Body.itemBody_apply _ _ _ _ p q).trans ?_
  show _ = Layer.rowsUpdate (N := 80000) (V c main_v70) (V c main_arg0) (V c main_v72) (V c main_v74)
    (((cfg1.win 4).blk t).view.emb (ix2 p q))
  unfold Layer.rowsUpdate
  have r0 : ((((cfg1.win 4).blk t).view.emb (ix2 p q)) 0).val = t.val * 4000 + p.val := by
    show win1_4.index t (0 : Fin 2) * 4000 + 1 * p.val = _; omega
  have r1 : ((((cfg1.win 4).blk t).view.emb (ix2 p q)) 1).val = q.val := by
    show win1_4.index t (1 : Fin 2) * 128 + 1 * q.val = _; omega
  refine congrArg₂ max (congrArg₂ (· + ·) (Finset.sum_congr rfl fun k _ => congrArg₂ (· * ·) (congrArg₂ (· + ·) ?_ ?_) ?_) ?_) rfl
  · exact read_msg V c t p k _ r0 rfl
  · exact read_feat V c t p k _ r0 rfl
  · exact read_weight V c t k q _ rfl r1
  · exact read_bias V c t 0 q _ rfl r1

/-- An index of the result array is in point t's block iff its row is among the block's 4000 rows. -/
theorem mem_block (t : Fin cfg1.N) (i : S80000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v76).slice (win1_4.rect t)).set ↔ _
  rw [View.set_slice_whole, Rect.mem_set_unit]
  exact Iff.rfl

/-- Row r lies in the block of point r / 4000: the blocks tile the array. -/
theorem covered (i : S80000x128.Idx) :
    ∃ t : Fin cfg1.N, (cfg1.win 4).flush t = true ∧ i ∈ ((cfg1.win 4).blk t).view.set := by
  have hi0 : (i 0).val < 80000 := (i 0).isLt
  have hi1 : (i 1).val < 128 := (i 1).isLt
  have hN : cfg1.N = 20 := N_1
  have ht : (i 0).val / 4000 < cfg1.N := by rw [hN]; omega
  obtain ⟨-, -, -, -, -, -, -, -, e8, e9⟩ := blockIndex ⟨(i 0).val / 4000, ht⟩
  have e8' : win1_4.index ⟨(i 0).val / 4000, ht⟩ (0 : Fin 2) = (i 0).val / 4000 := e8
  refine ⟨⟨(i 0).val / 4000, ht⟩, flush1_4 _, ?_⟩
  rw [mem_block]
  intro a
  match a with
  | ⟨0, _⟩ => show win1_4.index ⟨(i 0).val / 4000, ht⟩ (0 : Fin 2) * 4000 ≤ (i 0).val ∧ (i 0).val < win1_4.index ⟨(i 0).val / 4000, ht⟩ (0 : Fin 2) * 4000 + 4000; omega
  | ⟨1, _⟩ => show win1_4.index ⟨(i 0).val / 4000, ht⟩ (1 : Fin 2) * 128 ≤ (i 1).val ∧ (i 1).val < win1_4.index ⟨(i 0).val / 4000, ht⟩ (1 : Fin 2) * 128 + 128; omega

/-- The result array after the launch is the row-wise update of the arrays the launch finds. -/
theorem array_eq (c : Dev nD) :
    (dat1 (F := Ideal) V c).arrAt 4 cfg1.N
      = Layer.rowsUpdate (N := 80000) (V c main_v70) (V c main_arg0) (V c main_v72) (V c main_v74) :=
  (dat1 (F := Ideal) V c).arrAt_eq_of_cover 4 _ (fun t _ => flushed_eq V c t) covered

end Cert.KernelIdeal.ItemRegion

end
-- ==== Proof.UserRegion.lean ====
/-
  The user-update launch, from blocks to the whole array.

  The launch walks 5 grid points; point t holds rows 4000·t … 4000·t + 3999 of the message rows, of the feature rows and of
  the result, and the whole weight matrix and bias row at every point. What point t writes back is therefore block t of ONE
  function of the four arrays the launch finds — the row-wise update — and the 5 blocks tile the 20000 rows, so the result
  array ends holding that function, whatever the arrays were when the launch was entered.
-/
import proofs.«149580_j24060406792470_1_alg».proof.Proof.Gen.KernelIdeal.Frame
import proofs.«149580_j24060406792470_1_alg».proof.Proof.UpdateBody
import proofs.«149580_j24060406792470_1_alg».proof.Proof.Layer

set_option maxRecDepth 16384

noncomputable section

namespace Cert.KernelIdeal.UserRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the three row-blocked windows sit at block row t, the weight and bias windows at
    the origin. -/
theorem blockIndex : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Message rows: entry (p, k) of point t's block is entry (4000·t + p, k) of the array. -/
theorem read_msg (c : Dev nD) (t : Fin cfg2.N) (p : Fin 4000) (k : Fin 128) (i : S20000x128.Idx)
    (h0 : (i 0).val = t.val * 4000 + p.val) (h1 : (i 1).val = k.val) :
    iblk2 V c 0 t (ix2 p k) = V c main_v71 i := by
  show V c main_v71 (((cfg2.win 0).blk t).view.emb (ix2 p k)) = V c main_v71 i
  refine congrArg _ (funext fun a => Fin.ext ?_)
  obtain ⟨e0, e1, -⟩ := blockIndex t
  match a with
  | ⟨0, _⟩ => show win2_0.index t (0 : Fin 2) * 4000 + 1 * p.val = (i 0).val; omega
  | ⟨1, _⟩ => show win2_0.index t (1 : Fin 2) * 128 + 1 * k.val = (i 1).val; omega

/-- Feature rows: the same rows of the feature table. -/
theorem read_feat (c : Dev nD) (t : Fin cfg2.N) (p : Fin 4000) (k : Fin 128) (i : S20000x128.Idx)
    (h0 : (i 0).val = t.val * 4000 + p.val) (h1 : (i 1).val = k.val) :
    iblk2 V c 1 t (ix2 p k) = V c main_arg1 i := by
  show V c main_arg1 (((cfg2.win 1).blk t).view.emb (ix2 p k)) = V c main_arg1 i
  refine congrArg _ (funext fun a => Fin.ext ?_)
  obtain ⟨-, -, e2, e3, -⟩ := blockIndex t
  match a with
  | ⟨0, _⟩ => show win2_1.index t (0 : Fin 2) * 4000 + 1 * p.val = (i 0).val; omega
  | ⟨1, _⟩ => show win2_1.index t (1 : Fin 2) * 128 + 1 * k.val = (i 1).val; omega

/-- The weight matrix is held whole. -/
theorem read_weight (c : Dev nD) (t : Fin cfg2.N) (k q : Fin 128) (i : S128x128.Idx)
    (h0 : (i 0).val = k.val) (h1 : (i 1).val = q.val) :
    iblk2 V c 2 t (ix2 k q) = V c main_v73 i := by
  show V c main_v73 (((cfg2.win 2).blk t).view.emb (ix2 k q)) = V c main_v73 i
  refine congrArg _ (funext fun a => Fin.ext ?_)
  obtain ⟨-, -, -, -, e4, e5, -⟩ := blockIndex t
  match a with
  | ⟨0, _⟩ => show win2_2.index t (0 : Fin 2) * 128 + 1 * k.val = (i 0).val; omega
  | ⟨1, _⟩ => show win2_2.index t (1 : Fin 2) * 128 + 1 * q.val = (i 1).val; omega

/-- The bias row is held whole. -/
theorem read_bias (c : Dev nD) (t : Fin cfg2.N) (u : Fin 1) (q : Fin 128) (i : S1x128.Idx)
    (h0 : (i 0).val = u.val) (h1 : (i 1).val = q.val) :
    iblk2 V c 3 t (ix2 u q) = V c main_v75 i := by
  show V c main_v75 (((cfg2.win 3).blk t).view.emb (ix2 u q)) = V c main_v75 i
  refine congrArg _ (funext fun a => Fin.ext ?_)
  obtain ⟨-, -, -, -, -, -, e6, e7, -⟩ := blockIndex t
  match a with
  | ⟨0, _⟩ => show win2_3.index t (0 : Fin 2) * 1 + 1 * u.val = (i 0).val; omega
  | ⟨1, _⟩ => show win2_3.index t (1 : Fin 2) * 128 + 1 * q.val = (i 1).val; omega

/-- What point t writes back is block t of the row-wise update of the arrays the launch finds. -/
theorem flushed_eq (c : Dev nD) (t : Fin cfg2.N) :
    (dat2 (F := Ideal) V c).flushed 4 t = ((cfg2.win 4).blk t).view.read (Elt Ideal)
      (Layer.rowsUpdate (N := 20000) (V c main_v71) (V c main_arg1) (V c main_v73) (V c main_v75)) := by
  show (cfg2.win 4).cut (grid2.coords t) ((dat2 (F := Ideal) V c).after 4 t) = _
  rw [after2_4]
  unfold out2_4
  rw [View.canon_unit_zero zeroOffsets]
  simp only [View.ld_unit_zero (S := S4000x128) zeroOffsets, View.ld_unit_zero (S := S128x128) zeroOffsets,
    View.ld_unit_zero (S := S1x128) zeroOffsets]
  funext j
  obtain ⟨p, q, rfl⟩ : ∃ (p : Fin 4000) (q : Fin 128), j = ix2 p q := ⟨j 0, j 1, eq_ix2 j⟩
  obtain ⟨-, -, -, -, -, -, -, -, e8, e9⟩ := blockIndex t
  refine (Body.userBody_apply _ _ _ _ p q).trans ?_
  show _ = Layer.rowsUpdate (N := 20000) (V c main_v71) (V c main_arg1) (V c main_v73) (V c main_v75)
    (((cfg2.win 4).blk t).view.emb (ix2 p q))
  unfold Layer.rowsUpdate
  have r0 : ((((cfg2.win 4).blk t).view.emb (ix2 p q)) 0).val = t.val * 4000 + p.val := by
    show win2_4.index t (0 : Fin 2) * 4000 + 1 * p.val = _; omega
  have r1 : ((((cfg2.win 4).blk t).view.emb (ix2 p q)) 1).val = q.val := by
    show win2_4.index t (1 : Fin 2) * 128 + 1 * q.val = _; omega
  refine congrArg₂ max (congrArg₂ (· + ·) (Finset.sum_congr rfl fun k _ => congrArg₂ (· * ·) (congrArg₂ (· + ·) ?_ ?_) ?_) ?_) rfl
  · exact read_msg V c t p k _ r0 rfl
  · exact read_feat V c t p k _ r0 rfl
  · exact read_weight V c t k q _ rfl r1
  · exact read_bias V c t 0 q _ rfl r1

/-- An index of the result array is in point t's block iff its row is among the block's 4000 rows. -/
theorem mem_block (t : Fin cfg2.N) (i : S20000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v77).slice (win2_4.rect t)).set ↔ _
  rw [View.set_slice_whole, Rect.mem_set_unit]
  exact Iff.rfl

/-- Row r lies in the block of point r / 4000: the blocks tile the array. -/
theorem covered (i : S20000x128.Idx) :
    ∃ t : Fin cfg2.N, (cfg2.win 4).flush t = true ∧ i ∈ ((cfg2.win 4).blk t).view.set := by
  have hi0 : (i 0).val < 20000 := (i 0).isLt
  have hi1 : (i 1).val < 128 := (i 1).isLt
  have hN : cfg2.N = 5 := N_2
  have ht : (i 0).val / 4000 < cfg2.N := by rw [hN]; omega
  obtain ⟨-, -, -, -, -, -, -, -, e8, e9⟩ := blockIndex ⟨(i 0).val / 4000, ht⟩
  have e8' : win2_4.index ⟨(i 0).val / 4000, ht⟩ (0 : Fin 2) = (i 0).val / 4000 := e8
  refine ⟨⟨(i 0).val / 4000, ht⟩, flush2_4 _, ?_⟩
  rw [mem_block]
  intro a
  match a with
  | ⟨0, _⟩ => show win2_4.index ⟨(i 0).val / 4000, ht⟩ (0 : Fin 2) * 4000 ≤ (i 0).val ∧ (i 0).val < win2_4.index ⟨(i 0).val / 4000, ht⟩ (0 : Fin 2) * 4000 + 4000; omega
  | ⟨1, _⟩ => show win2_4.index ⟨(i 0).val / 4000, ht⟩ (1 : Fin 2) * 128 ≤ (i 1).val ∧ (i 1).val < win2_4.index ⟨(i 0).val / 4000, ht⟩ (1 : Fin 2) * 128 + 128; omega

/-- The result array after the launch is the row-wise update of the arrays the launch finds. -/
theorem array_eq (c : Dev nD) :
    (dat2 (F := Ideal) V c).arrAt 4 cfg2.N
      = Layer.rowsUpdate (N := 20000) (V c main_v71) (V c main_arg1) (V c main_v73) (V c main_v75) :=
  (dat2 (F := Ideal) V c).arrAt_eq_of_cover 4 _ (fun t _ => flushed_eq V c t) covered

end Cert.KernelIdeal.UserRegion

end
-- ==== Proof.Aggregate.lean ====
/-
  The edge aggregation as ONE function of the three transformed tables.

  For each relation the program gathers, for every edge, the source node's transformed row (a negative source index first
  wraps by the number of nodes), scales it by the edge's value, and scatter-adds the scaled rows into a zero table at the
  destination nodes; the three relations' tables are then added, in order, onto a zero table. Both programs apply exactly
  this chain of host operations to their three transformed tables, so it is carried as one function of those tables and of the
  three edge arrays, and never opened: equal transformed tables give equal message tables.
-/
import proofs.«149580_j24060406792470_1_alg».proof.Proof.Gen.KernelIdeal

noncomputable section

namespace Cert.KernelIdeal.Aggregate

open Cert.KernelIdeal Cert.KernelIdeal.Gen Idealize.ShloMosaic

variable {F : FTy → Type} [FloatOps F]

/-- The zero table the sums start from. -/
def zeroTable : FVec F S100000x128 .f32 :=
  broadcastInDim S100000x128 ![] bcast_S_S100000x128 (constant (F := F) S_ .f32 0x00000000#32)

/-- One relation's messages: from its transformed table `hr` and its rows of the edge arrays (values, destinations,
    sources), each still carrying the leading unit axis the slice left. -/
def relationMessages (hr : FVec F S100000x128 .f32) (vals : Vec F S1x1600000 .f32) (dst src : Vec F S1x1600000 .i32) :
    FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 (shapeCast _ dst shapeCasts_S1x1600000_S1600000))
    (mulf
      (Host.gather gather_S100000x128_S1600000x1_S1600000x128_1_0_n_n_0_1_1128 hr
        (broadcastInDim S1600000x1 ![0] bcast_S1600000_S1600000x1_0
          (select
            (cmpi .slt (shapeCast _ src shapeCasts_S1x1600000_S1600000) (broadcastInDim S1600000 ![] bcast_S_S1600000 (constantI S_ 32 0#32)))
            (addi (shapeCast _ src shapeCasts_S1x1600000_S1600000) (broadcastInDim S1600000 ![] bcast_S_S1600000 (constantI S_ 32 100000#32)))
            (shapeCast _ src shapeCasts_S1x1600000_S1600000))))
      (broadcastInDim S1600000x128 ![0, 1] bcast_S1600000x1_S1600000x128_0_1
        (broadcastInDim S1600000x1 ![0] bcast_S1600000_S1600000x1_0 (shapeCast _ vals shapeCasts_S1x1600000_S1600000))))

/-- The message table: the three relations' messages added in order onto the zero table. -/
def messages (hr0 hr1 hr2 : FVec F S100000x128 .f32) (vals : Vec F S3x1600000 .f32) (dst src : Vec F S3x1600000 .i32) :
    FVec F S100000x128 .f32 :=
  addf
    (addf
      (addf zeroTable
        (relationMessages hr0
          (extractStridedSlice S1x1600000 ![0, 0] vals slices_S3x1600000_S1x1600000_0_0)
          (extractStridedSlice S1x1600000 ![0, 0] dst slices_S3x1600000_S1x1600000_0_0)
          (extractStridedSlice S1x1600000 ![0, 0] src slices_S3x1600000_S1x1600000_0_0)))
      (relationMessages hr1
        (extractStridedSlice S1x1600000 ![1, 0] vals slices_S3x1600000_S1x1600000_1_0)
        (extractStridedSlice S1x1600000 ![1, 0] dst slices_S3x1600000_S1x1600000_1_0)
        (extractStridedSlice S1x1600000 ![1, 0] src slices_S3x1600000_S1x1600000_1_0)))
    (relationMessages hr2
      (extractStridedSlice S1x1600000 ![2, 0] vals slices_S3x1600000_S1x1600000_2_0)
      (extractStridedSlice S1x1600000 ![2, 0] dst slices_S3x1600000_S1x1600000_2_0)
      (extractStridedSlice S1x1600000 ![2, 0] src slices_S3x1600000_S1x1600000_2_0))

end Cert.KernelIdeal.Aggregate

end
-- ==== Proof.KernelValue.lean ====
/-
  The idealized kernel's two results as the layer's formulas of its arguments.

  Reading the run backwards from the last segment boundary: each result array is what its update launch leaves, the row-wise
  update of the four arrays that launch finds; those are, by the host operations before it, a row range of the message table,
  the launched features, the transposed weight matrix and the bias as one row; the message table is the shared aggregation of
  the three slabs of the relation launch's result; that result is the product of the node table (the two feature tables
  stacked) with the three transposed relation matrices, so its r-th slab is the r-th transformed table.
-/
import proofs.«149580_j24060406792470_1_alg».proof.Proof.Gen.KernelIdeal.Frame
import proofs.«149580_j24060406792470_1_alg».proof.Proof.RelRegion
import proofs.«149580_j24060406792470_1_alg».proof.Proof.ItemRegion
import proofs.«149580_j24060406792470_1_alg».proof.Proof.UserRegion
import proofs.«149580_j24060406792470_1_alg».proof.Proof.Aggregate
import proofs.«149580_j24060406792470_1_alg».proof.Proof.Layer
import Idealize.ShloMosaic.Lib.StableHlo.Run
import Idealize.ShloMosaic.Lib.ValueLayout

set_option maxRecDepth 16384

noncomputable section

namespace Cert.KernelIdeal.Value

open Cert.KernelIdeal Cert.KernelIdeal.Gen Idealize.ShloMosaic Idealize.ShloMosaic.TcCoe Idealize.ShloMosaic.ValueIdx
open Idealize.SL.Sem Idealize.ShloMosaic.StableHlo

/-! ## The slabs of the relation launch's result -/

/-- Slab r of a [3, 100000, 128] array as a [100000, 128] table: the slice at r with its unit axis dropped. -/
def slab0 (X : FVec Ideal S3x100000x128 .f32) : FVec Ideal S100000x128 .f32 :=
  shapeCast _ (extractStridedSlice S1x100000x128 ![0, 0, 0] X slices_S3x100000x128_S1x100000x128_0_0_0) shapeCasts_S1x100000x128_S100000x128
def slab1 (X : FVec Ideal S3x100000x128 .f32) : FVec Ideal S100000x128 .f32 :=
  shapeCast _ (extractStridedSlice S1x100000x128 ![1, 0, 0] X slices_S3x100000x128_S1x100000x128_1_0_0) shapeCasts_S1x100000x128_S100000x128
def slab2 (X : FVec Ideal S3x100000x128 .f32) : FVec Ideal S100000x128 .f32 :=
  shapeCast _ (extractStridedSlice S1x100000x128 ![2, 0, 0] X slices_S3x100000x128_S1x100000x128_2_0_0) shapeCasts_S1x100000x128_S100000x128

/-- Slab 0 of the three products against the transposed matrices is relation 0's transformed table. -/
theorem slab0_eq (T : FVec Ideal S100000x128 .f32) (A2 : FVec Ideal S3x128x128 .f32) :
    slab0 (Layer.relProducts (N := 100000) T (transpose S3x128x128 [0, 2, 1] A2 transposes_S3x128x128_S3x128x128_0_2_1))
      = Layer.relTransformAt 0 T A2 := by
  funext i
  obtain ⟨n, d, rfl⟩ : ∃ (n : Fin 100000) (d : Fin 128), i = ix2 n d := ⟨i 0, i 1, eq_ix2 i⟩
  unfold slab0
  refine (shapeCast_1ab_ab_apply _ shapeCasts_S1x100000x128_S100000x128 n d).trans ?_
  refine (extractStridedSlice_apply ![0, 0, 0] _ slices_S3x100000x128_S1x100000x128_0_0_0 (ix3 (0 : Fin 1) n d) (ix3 (0 : Fin 3) n d)
    (fun a => match a with
      | ⟨0, _⟩ => rfl
      | ⟨1, _⟩ => by show n.val = 0 + n.val; omega
      | ⟨2, _⟩ => by show d.val = 0 + d.val; omega)).trans ?_
  unfold Layer.relProducts Layer.relTransformAt
  exact Finset.sum_congr rfl fun k _ => congrArg (T (ix2 n k) * ·) (transpose_ix3_021_apply A2 _ 0 k d)

theorem slab1_eq (T : FVec Ideal S100000x128 .f32) (A2 : FVec Ideal S3x128x128 .f32) :
    slab1 (Layer.relProducts (N := 100000) T (transpose S3x128x128 [0, 2, 1] A2 transposes_S3x128x128_S3x128x128_0_2_1))
      = Layer.relTransformAt 1 T A2 := by
  funext i
  obtain ⟨n, d, rfl⟩ : ∃ (n : Fin 100000) (d : Fin 128), i = ix2 n d := ⟨i 0, i 1, eq_ix2 i⟩
  unfold slab1
  refine (shapeCast_1ab_ab_apply _ shapeCasts_S1x100000x128_S100000x128 n d).trans ?_
  refine (extractStridedSlice_apply ![1, 0, 0] _ slices_S3x100000x128_S1x100000x128_1_0_0 (ix3 (0 : Fin 1) n d) (ix3 (1 : Fin 3) n d)
    (fun a => match a with
      | ⟨0, _⟩ => rfl
      | ⟨1, _⟩ => by show n.val = 0 + n.val; omega
      | ⟨2, _⟩ => by show d.val = 0 + d.val; omega)).trans ?_
  unfold Layer.relProducts Layer.relTransformAt
  exact Finset.sum_congr rfl fun k _ => congrArg (T (ix2 n k) * ·) (transpose_ix3_021_apply A2 _ 1 k d)

theorem slab2_eq (T : FVec Ideal S100000x128 .f32) (A2 : FVec Ideal S3x128x128 .f32) :
    slab2 (Layer.relProducts (N := 100000) T (transpose S3x128x128 [0, 2, 1] A2 transposes_S3x128x128_S3x128x128_0_2_1))
      = Layer.relTransformAt 2 T A2 := by
  funext i
  obtain ⟨n, d, rfl⟩ : ∃ (n : Fin 100000) (d : Fin 128), i = ix2 n d := ⟨i 0, i 1, eq_ix2 i⟩
  unfold slab2
  refine (shapeCast_1ab_ab_apply _ shapeCasts_S1x100000x128_S100000x128 n d).trans ?_
  refine (extractStridedSlice_apply ![2, 0, 0] _ slices_S3x100000x128_S1x100000x128_2_0_0 (ix3 (0 : Fin 1) n d) (ix3 (2 : Fin 3) n d)
    (fun a => match a with
      | ⟨0, _⟩ => rfl
      | ⟨1, _⟩ => by show n.val = 0 + n.val; omega
      | ⟨2, _⟩ => by show d.val = 0 + d.val; omega)).trans ?_
  unfold Layer.relProducts Layer.relTransformAt
  exact Finset.sum_congr rfl fun k _ => congrArg (T (ix2 n k) * ·) (transpose_ix3_021_apply A2 _ 2 k d)

/-! ## The update launches' operands, read at an index -/

/-- The row-wise update of the first 80000 message rows, with the weight matrix transposed and the bias as one row, is the
    item update. -/
theorem itemRows_eq (M : FVec Ideal S100000x128 .f32) (A0 : FVec Ideal S80000x128 .f32) (A3 : FVec Ideal S128x128 .f32)
    (A4 : FVec Ideal S128 .f32) :
    Layer.rowsUpdate (N := 80000) (extractStridedSlice S80000x128 ![0, 0] M slices_S100000x128_S80000x128_0_0) A0
        (transpose S128x128 [1, 0] A3 transposes_S128x128_S128x128_1_0) (shapeCast _ A4 shapeCasts_S128_S1x128)
      = Layer.itemUpdate M A0 A3 A4 := by
  funext i
  obtain ⟨n, d, rfl⟩ : ∃ (n : Fin 80000) (d : Fin 128), i = ix2 n d := ⟨i 0, i 1, eq_ix2 i⟩
  unfold Layer.rowsUpdate Layer.itemUpdate
  refine congrArg₂ max (congrArg₂ (· + ·) (Finset.sum_congr rfl fun k _ => congrArg₂ (· * ·) (congrArg₂ (· + ·) ?_ rfl) ?_) ?_) rfl
  · exact slice2_axis0_apply 0 M slices_S100000x128_S80000x128_0_0 n k ⟨n.val, Nat.lt_trans n.isLt (by decide)⟩ (by show n.val = 0 + n.val; omega)
  · exact transpose_ix2_apply A3 transposes_S128x128_S128x128_1_0 k d
  · exact shapeCast_a_1a_apply A4 shapeCasts_S128_S1x128 0 d

/-- The same over the last 20000 message rows is the user update. -/
theorem userRows_eq (M : FVec Ideal S100000x128 .f32) (A1 : FVec Ideal S20000x128 .f32) (A5 : FVec Ideal S128x128 .f32)
    (A6 : FVec Ideal S128 .f32) :
    Layer.rowsUpdate (N := 20000) (extractStridedSlice S20000x128 ![80000, 0] M slices_S100000x128_S20000x128_80000_0) A1
        (transpose S128x128 [1, 0] A5 transposes_S128x128_S128x128_1_0) (shapeCast _ A6 shapeCasts_S128_S1x128)
      = Layer.userUpdate M A1 A5 A6 := by
  funext i
  obtain ⟨n, d, rfl⟩ : ∃ (n : Fin 20000) (d : Fin 128), i = ix2 n d := ⟨i 0, i 1, eq_ix2 i⟩
  unfold Layer.rowsUpdate Layer.userUpdate
  refine congrArg₂ max (congrArg₂ (· + ·) (Finset.sum_congr rfl fun k _ => congrArg₂ (· * ·) (congrArg₂ (· + ·) ?_ rfl) ?_) ?_) rfl
  · exact slice2_axis0_apply 80000 M slices_S100000x128_S20000x128_80000_0 n k ⟨80000 + n.val, Nat.add_lt_add_left n.isLt 80000⟩ rfl
  · exact transpose_ix2_apply A5 transposes_S128x128_S128x128_1_0 k d
  · exact shapeCast_a_1a_apply A6 shapeCasts_S128_S1x128 0 d

/-! ## The host operations before each launch -/

section Run

variable (m : (ℓ : Loc nD τ sig) → Buf (Elt Ideal) ℓ) (ρ : Dev nD → PrngReg) (c : Dev nD)

/-- The node table: the item features stacked on the user features. -/
def table : FVec Ideal S100000x128 .f32 :=
  concatenate S100000x128 0 [⟨S80000x128, m ((c : Thread nD τ).loc main_arg0)⟩, ⟨S20000x128, m ((c : Thread nD τ).loc main_arg1)⟩]
    concatenates_S80000x128_S20000x128_S100000x128_d0

/-- The relation launch finds the node table … -/
theorem table_entry : (V1 m ρ c main_v0 : FVec Ideal S100000x128 .f32) = table m c := by
  show StableHlo.after hostOps0 (W0 m ρ c) (Proc.devRef .tc main_v0) = _
  after_results
  all_goals rfl

/-- … and the relation matrices, each transposed. -/
theorem matrices_entry : (V1 m ρ c main_v1 : FVec Ideal S3x128x128 .f32)
    = transpose S3x128x128 [0, 2, 1] (m ((c : Thread nD τ).loc main_arg2)) transposes_S3x128x128_S3x128x128_0_2_1 := by
  show StableHlo.after hostOps0 (W0 m ρ c) (Proc.devRef .tc main_v1) = _
  after_results
  all_goals rfl

/-! Neither the first host operations nor the relation launch write an argument array. -/
theorem arg0_at2 : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results
    all_goals rfl)

theorem arg1_at2 : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results
    all_goals rfl)

theorem arg3_at2 : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results
    all_goals rfl)

theorem arg4_at2 : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results
    all_goals rfl)

theorem arg5_at2 : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results
    all_goals rfl)

theorem arg6_at2 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results
    all_goals rfl)

theorem arg7_at2 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results
    all_goals rfl)

theorem arg8_at2 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results
    all_goals rfl)

theorem arg9_at2 : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results
    all_goals rfl)

/-- After the relation launch its result array holds the three products of the node table with the transposed matrices. -/
theorem products_at2 : (W2 m ρ c (Proc.devRef .tc main_v2) : FVec Ideal S3x100000x128 .f32)
    = Layer.relProducts (N := 100000) (table m c)
        (transpose S3x128x128 [0, 2, 1] (m ((c : Thread nD τ).loc main_arg2)) transposes_S3x128x128_S3x128x128_0_2_1) := by
  refine (W2_arr m ρ c 2).trans ?_
  rw [RelRegion.array_eq (V1 m ρ) c, table_entry, matrices_entry]

/-! The second stretch of host operations, from ANY contents `A` of the buffers before it. -/

set_option maxHeartbeats 40000000 in
theorem itemMessages_entry (A : Valuation τ sig (Elt Ideal)) :
    (StableHlo.after hostOps1 A (Proc.devRef .tc main_v70) : FVec Ideal S80000x128 .f32)
      = extractStridedSlice S80000x128 ![0, 0]
          (Aggregate.messages (slab0 (A (Proc.devRef .tc main_v2))) (slab1 (A (Proc.devRef .tc main_v2))) (slab2 (A (Proc.devRef .tc main_v2)))
            (A (Proc.devRef .tc main_arg7)) (A (Proc.devRef .tc main_arg8)) (A (Proc.devRef .tc main_arg9)))
          slices_S100000x128_S80000x128_0_0 := by
  after_results_simp
  all_goals rfl

set_option maxHeartbeats 40000000 in
theorem userMessages_entry (A : Valuation τ sig (Elt Ideal)) :
    (StableHlo.after hostOps1 A (Proc.devRef .tc main_v71) : FVec Ideal S20000x128 .f32)
      = extractStridedSlice S20000x128 ![80000, 0]
          (Aggregate.messages (slab0 (A (Proc.devRef .tc main_v2))) (slab1 (A (Proc.devRef .tc main_v2))) (slab2 (A (Proc.devRef .tc main_v2)))
            (A (Proc.devRef .tc main_arg7)) (A (Proc.devRef .tc main_arg8)) (A (Proc.devRef .tc main_arg9)))
          slices_S100000x128_S20000x128_80000_0 := by
  after_results_simp
  all_goals rfl

set_option maxHeartbeats 4000000 in
theorem itemWeight_entry (A : Valuation τ sig (Elt Ideal)) :
    (StableHlo.after hostOps1 A (Proc.devRef .tc main_v72) : FVec Ideal S128x128 .f32)
      = transpose S128x128 [1, 0] (A (Proc.devRef .tc main_arg3)) transposes_S128x128_S128x128_1_0 := by
  after_results_simp
  all_goals rfl

set_option maxHeartbeats 4000000 in
theorem userWeight_entry (A : Valuation τ sig (Elt Ideal)) :
    (StableHlo.after hostOps1 A (Proc.devRef .tc main_v73) : FVec Ideal S128x128 .f32)
      = transpose S128x128 [1, 0] (A (Proc.devRef .tc main_arg5)) transposes_S128x128_S128x128_1_0 := by
  after_results_simp
  all_goals rfl

set_option maxHeartbeats 4000000 in
theorem itemBias_entry (A : Valuation τ sig (Elt Ideal)) :
    (StableHlo.after hostOps1 A (Proc.devRef .tc main_v74) : FVec Ideal S1x128 .f32)
      = shapeCast _ (A (Proc.devRef .tc main_arg4)) shapeCasts_S128_S1x128 := by
  after_results_simp
  all_goals rfl

set_option maxHeartbeats 4000000 in
theorem userBias_entry (A : Valuation τ sig (Elt Ideal)) :
    (StableHlo.after hostOps1 A (Proc.devRef .tc main_v75) : FVec Ideal S1x128 .f32)
      = shapeCast _ (A (Proc.devRef .tc main_arg6)) shapeCasts_S128_S1x128 := by
  after_results_simp
  all_goals rfl

set_option maxHeartbeats 4000000 in
theorem itemFeatures_entry (A : Valuation τ sig (Elt Ideal)) :
    StableHlo.after hostOps1 A (Proc.devRef .tc main_arg0) = A (Proc.devRef .tc main_arg0) := by
  after_results_simp
  all_goals rfl

set_option maxHeartbeats 4000000 in
theorem userFeatures_entry (A : Valuation τ sig (Elt Ideal)) :
    StableHlo.after hostOps1 A (Proc.devRef .tc main_arg1) = A (Proc.devRef .tc main_arg1) := by
  after_results_simp
  all_goals rfl

/-! ## The two results -/

/-- The message table the arguments give: the shared aggregation of the three transformed tables. -/
def messageTable : FVec Ideal S100000x128 .f32 :=
  Aggregate.messages
    (Layer.relTransformAt 0 (table m c) (m ((c : Thread nD τ).loc main_arg2)))
    (Layer.relTransformAt 1 (table m c) (m ((c : Thread nD τ).loc main_arg2)))
    (Layer.relTransformAt 2 (table m c) (m ((c : Thread nD τ).loc main_arg2)))
    (m ((c : Thread nD τ).loc main_arg7)) (m ((c : Thread nD τ).loc main_arg8)) (m ((c : Thread nD τ).loc main_arg9))

/-- The item rows' result. -/
def itemResult : FVec Ideal S80000x128 .f32 :=
  Layer.itemUpdate (messageTable m c) (m ((c : Thread nD τ).loc main_arg0)) (m ((c : Thread nD τ).loc main_arg3)) (m ((c : Thread nD τ).loc main_arg4))

/-- The user rows' result. -/
def userResult : FVec Ideal S20000x128 .f32 :=
  Layer.userUpdate (messageTable m c) (m ((c : Thread nD τ).loc main_arg1)) (m ((c : Thread nD τ).loc main_arg5)) (m ((c : Thread nD τ).loc main_arg6))

/-- The aggregation of the relation launch's three slabs is the message table. -/
theorem messages_at3 :
    Aggregate.messages (slab0 (W2 m ρ c (Proc.devRef .tc main_v2))) (slab1 (W2 m ρ c (Proc.devRef .tc main_v2))) (slab2 (W2 m ρ c (Proc.devRef .tc main_v2)))
      (W2 m ρ c (Proc.devRef .tc main_arg7)) (W2 m ρ c (Proc.devRef .tc main_arg8)) (W2 m ρ c (Proc.devRef .tc main_arg9))
      = messageTable m c := by
  rw [products_at2, slab0_eq, slab1_eq, slab2_eq, arg7_at2, arg8_at2, arg9_at2]
  rfl

/-- The item-update launch leaves the item update of the message table. -/
theorem item_result : W5 m ρ c (Proc.devRef .tc main_v76) = itemResult m c := by
  refine (W5_of_ne m ρ c main_v76 (by decide)).trans ?_
  refine (W4_arr m ρ c 4).trans ?_
  rw [ItemRegion.array_eq (V3 m ρ) c]
  show Layer.rowsUpdate (N := 80000) (StableHlo.after hostOps1 (W2 m ρ c) (Proc.devRef .tc main_v70))
    (StableHlo.after hostOps1 (W2 m ρ c) (Proc.devRef .tc main_arg0)) (StableHlo.after hostOps1 (W2 m ρ c) (Proc.devRef .tc main_v72))
    (StableHlo.after hostOps1 (W2 m ρ c) (Proc.devRef .tc main_v74)) = _
  rw [itemMessages_entry, itemFeatures_entry, itemWeight_entry, itemBias_entry, messages_at3, arg0_at2, arg3_at2, arg4_at2]
  exact itemRows_eq _ _ _ _

/-- The user-update launch leaves the user update of the message table. -/
theorem user_result : W5 m ρ c (Proc.devRef .tc main_v77) = userResult m c := by
  refine (W5_arr m ρ c 4).trans ?_
  rw [UserRegion.array_eq (V4 m ρ) c]
  show Layer.rowsUpdate (N := 20000) (W4 m ρ c (Proc.devRef .tc main_v71)) (W4 m ρ c (Proc.devRef .tc main_arg1))
    (W4 m ρ c (Proc.devRef .tc main_v73)) (W4 m ρ c (Proc.devRef .tc main_v75)) = _
  rw [W4_of_ne m ρ c main_v71 (by decide), W4_of_ne m ρ c main_arg1 (by decide), W4_of_ne m ρ c main_v73 (by decide),
    W4_of_ne m ρ c main_v75 (by decide)]
  show Layer.rowsUpdate (N := 20000) (StableHlo.after hostOps1 (W2 m ρ c) (Proc.devRef .tc main_v71))
    (StableHlo.after hostOps1 (W2 m ρ c) (Proc.devRef .tc main_arg1)) (StableHlo.after hostOps1 (W2 m ρ c) (Proc.devRef .tc main_v73))
    (StableHlo.after hostOps1 (W2 m ρ c) (Proc.devRef .tc main_v75)) = _
  rw [userMessages_entry, userFeatures_entry, userWeight_entry, userBias_entry, messages_at3, arg1_at2, arg5_at2, arg6_at2]
  exact userRows_eq _ _ _ _

end Run

end Cert.KernelIdeal.Value

end
-- ==== Proof.RefValue.lean ====
/-
  The reference's two results as the layer's formulas.

  The reference computes everything on the host. Read one operation at a time and one index at a time: each relation's
  transformed table is the node table against the rows of that relation's matrix (the matrix is sliced out of the stack, its
  unit axis dropped, and transposed, and the product contracts the table's columns with the transposed matrix's rows: entry
  (n, d) is ∑ k, h[n, k] · W[r, d, k]); the message table is the shared aggregation of the three transformed tables; each
  result is the rectified affine image of a row range of the message table plus the features, the weight matrix transposed
  on the way in and the bias broadcast along the rows.
-/
import proofs.«149580_j24060406792470_1_alg».proof.Proof.Gen.ReferenceIdeal.Read
import proofs.«149580_j24060406792470_1_alg».proof.Proof.Aggregate
import proofs.«149580_j24060406792470_1_alg».proof.Proof.Layer

noncomputable section

namespace Cert.ReferenceIdeal.RefValue

open Cert.ReferenceIdeal Cert.ReferenceIdeal.Gen Cert.ReferenceIdeal.Read Idealize.ShloMosaic Idealize.ShloMosaic.ValueIdx

variable (x0 : (⟨S80000x128, .f32⟩ : BufTy).Contents (Elt Ideal)) (x1 : (⟨S20000x128, .f32⟩ : BufTy).Contents (Elt Ideal))
  (x2 : (⟨S3x128x128, .f32⟩ : BufTy).Contents (Elt Ideal)) (x3 x5 : (⟨S128x128, .f32⟩ : BufTy).Contents (Elt Ideal))
  (x4 x6 : (⟨S128, .f32⟩ : BufTy).Contents (Elt Ideal)) (x7 : (⟨S3x1600000, .f32⟩ : BufTy).Contents (Elt Ideal))
  (x8 x9 : (⟨S3x1600000, .i32⟩ : BufTy).Contents (Elt Ideal))

/-- The message table is the shared aggregation of the three transformed tables: the same chain of operations, term for term. -/
theorem messages_eq :
    val_main_v73 (F := Ideal) x0 x1 x2 x7 x8 x9
      = Cert.KernelIdeal.Aggregate.messages (F := Ideal) (val_main_v5 (F := Ideal) x0 x1 x2) (val_main_v29 (F := Ideal) x0 x1 x2)
          (val_main_v53 (F := Ideal) x0 x1 x2) x7 x8 x9 := rfl

/-- Relation 0's transformed table. -/
theorem transform0_eq : val_main_v5 (F := Ideal) x0 x1 x2 = Layer.relTransformAt 0 (val_main_v0 (F := Ideal) x0 x1) x2 := by
  funext i
  rw [val_main_v5_apply]
  unfold Layer.relTransformAt
  refine Finset.sum_congr rfl fun k _ => ?_
  rw [val_main_v4_apply, val_main_v3_apply, val_main_v2_apply]
  have hi : (i 1).val < 128 := (i 1).isLt
  have hk : k.val < 128 := k.isLt
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => show ((i 1).val * 128 + k.val) / 128 % 128 = (i 1).val; omega
    | ⟨2, _⟩ => show ((i 1).val * 128 + k.val) % 128 = k.val; omega

/-- Relation 1's transformed table. -/
theorem transform1_eq : val_main_v29 (F := Ideal) x0 x1 x2 = Layer.relTransformAt 1 (val_main_v0 (F := Ideal) x0 x1) x2 := by
  funext i
  rw [val_main_v29_apply]
  unfold Layer.relTransformAt
  refine Finset.sum_congr rfl fun k _ => ?_
  rw [val_main_v28_apply, val_main_v27_apply, val_main_v26_apply]
  have hi : (i 1).val < 128 := (i 1).isLt
  have hk : k.val < 128 := k.isLt
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => show ((i 1).val * 128 + k.val) / 128 % 128 = (i 1).val; omega
    | ⟨2, _⟩ => show ((i 1).val * 128 + k.val) % 128 = k.val; omega

/-- Relation 2's transformed table. -/
theorem transform2_eq : val_main_v53 (F := Ideal) x0 x1 x2 = Layer.relTransformAt 2 (val_main_v0 (F := Ideal) x0 x1) x2 := by
  funext i
  rw [val_main_v53_apply]
  unfold Layer.relTransformAt
  refine Finset.sum_congr rfl fun k _ => ?_
  rw [val_main_v52_apply, val_main_v51_apply, val_main_v50_apply]
  have hi : (i 1).val < 128 := (i 1).isLt
  have hk : k.val < 128 := k.isLt
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => show ((i 1).val * 128 + k.val) / 128 % 128 = (i 1).val; omega
    | ⟨2, _⟩ => show ((i 1).val * 128 + k.val) % 128 = k.val; omega

/-- The item result is the item update of the message table. -/
theorem item_eq :
    val_main_v81 (F := Ideal) x0 x1 x2 x3 x4 x7 x8 x9
      = Layer.itemUpdate (val_main_v73 (F := Ideal) x0 x1 x2 x7 x8 x9) x0 x3 x4 := by
  funext i
  rw [val_main_v81_apply, val_main_v80_apply, val_main_v77_apply, val_main_v79_apply, val_main_v78_apply,
    val_main_call0_v0_apply, val_main_call0_cst_apply]
  unfold Layer.itemUpdate
  refine congrArg₂ max (congrArg₂ (· + ·) (Finset.sum_congr rfl fun k _ => ?_) (congrArg _ (funext fun a => Fin.ext ?_))) rfl
  · rw [val_main_v75_apply, val_main_v74_apply, val_main_v76_apply]
    refine congrArg₂ (· * ·) (congrArg₂ (· + ·) (congrArg _ (funext fun a => Fin.ext ?_)) (congrArg _ (funext fun a => Fin.ext ?_)))
      (congrArg _ (funext fun a => Fin.ext ?_))
    · match a with
      | ⟨0, _⟩ => rfl
      | ⟨1, _⟩ => rfl
    · match a with
      | ⟨0, _⟩ => rfl
      | ⟨1, _⟩ => rfl
    · match a with
      | ⟨0, _⟩ => rfl
      | ⟨1, _⟩ => rfl
  · match a with
    | ⟨0, _⟩ => rfl

/-- The user result is the user update of the message table. -/
theorem user_eq :
    val_main_v89 (F := Ideal) x0 x1 x2 x5 x6 x7 x8 x9
      = Layer.userUpdate (val_main_v73 (F := Ideal) x0 x1 x2 x7 x8 x9) x1 x5 x6 := by
  funext i
  rw [val_main_v89_apply, val_main_v88_apply, val_main_v85_apply, val_main_v87_apply, val_main_v86_apply,
    val_main_call1_v0_apply, val_main_call1_cst_apply]
  unfold Layer.userUpdate
  refine congrArg₂ max (congrArg₂ (· + ·) (Finset.sum_congr rfl fun k _ => ?_) (congrArg _ (funext fun a => Fin.ext ?_))) rfl
  · rw [val_main_v83_apply, val_main_v82_apply, val_main_v84_apply]
    refine congrArg₂ (· * ·) (congrArg₂ (· + ·) (congrArg _ (funext fun a => Fin.ext ?_)) (congrArg _ (funext fun a => Fin.ext ?_)))
      (congrArg _ (funext fun a => Fin.ext ?_))
    · match a with
      | ⟨0, _⟩ => rfl
      | ⟨1, _⟩ => rfl
    · match a with
      | ⟨0, _⟩ => rfl
      | ⟨1, _⟩ => rfl
    · match a with
      | ⟨0, _⟩ => rfl
      | ⟨1, _⟩ => rfl
  · match a with
    | ⟨0, _⟩ => rfl

end Cert.ReferenceIdeal.RefValue

end
-- ==== Proof.lean ====
/-
  One heterogeneous message-passing layer: the Pallas program against its jnp reference, over the extended reals.

  Both programs transform the node table by the three relation matrices, aggregate the transformed rows along the edges into
  one message table, and update the item rows and the user rows by a rectified affine map of message plus features. The
  kernel does the two dense steps in three pipelined launches (the relation products tile by tile, then one update launch per
  node class) and the aggregation on the host; the reference does everything on the host. At the ideal instance the rounding
  to bfloat16 in front of every matrix product is the identity, a product into a zero accumulator is the plain sum over the
  contracted axis, and a sum tiled by row blocks is the same sum row by row — so both programs end at the same two functions
  of the arguments (`Layer.itemUpdate`, `Layer.userUpdate` of the shared aggregation of the three `Layer.relTransformAt`),
  index by index; no law of the extended reals beyond reading both sides at an index is needed, and the precondition is not
  used. The three frames are the generated frame runs (the reference's is its generated run with the results dropped), and
  the idealization rewrote nothing, so there is nothing to preserve.
-/
import proofs.«149580_j24060406792470_1_alg».proof.Defs
import proofs.«149580_j24060406792470_1_alg».proof.Proof.Gen.Kernel
import proofs.«149580_j24060406792470_1_alg».proof.Proof.Gen.Kernel.Frame
import proofs.«149580_j24060406792470_1_alg».proof.Proof.Gen.KernelIdeal
import proofs.«149580_j24060406792470_1_alg».proof.Proof.Gen.KernelIdeal.Frame
import proofs.«149580_j24060406792470_1_alg».proof.Proof.Gen.ReferenceIdeal
import proofs.«149580_j24060406792470_1_alg».proof.Proof.Gen.Pre_finite_inputs
import proofs.«149580_j24060406792470_1_alg».proof.Proof.Gen.ReferenceIdeal.Run
import proofs.«149580_j24060406792470_1_alg».proof.Proof.Gen.ReferenceIdeal.Read
import proofs.«149580_j24060406792470_1_alg».proof.Proof.KernelRun
import proofs.«149580_j24060406792470_1_alg».proof.Proof.KernelValue
import proofs.«149580_j24060406792470_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the item rows at the item update and the user rows at the user update of the message table the
    kernel's arguments give. -/
theorem algebraic : Cert.algebraic_KernelIdeal_ReferenceIdeal := by
  intro m ρ m' ρ' _ hagree
  refine ⟨fun c => Cert.KernelIdeal.Value.itemResult m c, fun c => Cert.KernelIdeal.Value.userResult m c, ?_, ?_⟩
  · exact (θ_run Cert.KernelIdeal.defs _ _).mono
      (fun r h c => ⟨(h c).1.trans (Cert.KernelIdeal.Value.item_result m ρ c), (h c).2.1.trans (Cert.KernelIdeal.Value.user_result m ρ c), (h c).2.2⟩)
      (Cert.KernelIdeal.Results.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v81_eq, Cert.ReferenceIdeal.RefValue.item_eq, Cert.ReferenceIdeal.RefValue.messages_eq,
        Cert.ReferenceIdeal.RefValue.transform0_eq, Cert.ReferenceIdeal.RefValue.transform1_eq, Cert.ReferenceIdeal.RefValue.transform2_eq,
        (hagree c).1, (hagree c).2.1, (hagree c).2.2.1, (hagree c).2.2.2.1, (hagree c).2.2.2.2.1,
        (hagree c).2.2.2.2.2.2.2.1, (hagree c).2.2.2.2.2.2.2.2.1, (hagree c).2.2.2.2.2.2.2.2.2]
      rfl
    · rw [Cert.ReferenceIdeal.Read.val_main_v89_eq, Cert.ReferenceIdeal.RefValue.user_eq, Cert.ReferenceIdeal.RefValue.messages_eq,
        Cert.ReferenceIdeal.RefValue.transform0_eq, Cert.ReferenceIdeal.RefValue.transform1_eq, Cert.ReferenceIdeal.RefValue.transform2_eq,
        (hagree c).1, (hagree c).2.1, (hagree c).2.2.1, (hagree c).2.2.2.2.2.1, (hagree c).2.2.2.2.2.2.1,
        (hagree c).2.2.2.2.2.2.2.1, (hagree c).2.2.2.2.2.2.2.2.1, (hagree c).2.2.2.2.2.2.2.2.2]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
